-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v20)) (v3 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v20) = v2 c
          ∧ r.2.mem ((c.tc : Thread Cert.KernelIdeal.nD Cert.KernelIdeal.τ).loc Cert.KernelIdeal.main_v22) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_v25) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x16 : Shape := ⟨2, ![10000, 16]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x16 : S_.BroadcastsInDim S10000x16 (![] : Fin 0 → Fin S10000x16.rank)
  reducesTo_S10000x16_S_d0_1 : S10000x16.ReducesTo [0, 1] S_

variable [Facts]

def fn {F : FTy → Type} [FloatOps F] (main_arg0 : FVec F S10000x10000 .f32) (main_arg1 : FVec F S10000x10000 .f32) (main_arg2 : FVec F S10000x16 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x16 .f32 := Host.absf main_arg2
  let main_cst_2 : FVec F S_ .f32 := constant S_ .f32 0x7F800000#32
  let main_v10 : FVec F S10000x16 .f32 := broadcastInDim S10000x16 ![] bcast_S_S10000x16 main_cst_2
  let main_v11 : IVec S10000x16 1 := cmpf .olt main_v9 main_v10
  let main_c_3 : IVec S_ 1 := constantI S_ 1 1#1
  let main_v12 : IVec S_ 1 := (fun x v => Host.reduce IntOp.andi x v reducesTo_S10000x16_S_d0_1 h_S_) main_v11 main_c_3
  let main_v13 : IVec S_ 1 := andi main_v8 main_v12
  main_v13
-- ==== Kernel.lean ====
abbrev S10000x10000 : Shape := ⟨2, ![10000, 10000]⟩
abbrev S10000x16 : Shape := ⟨2, ![10000, 16]⟩
abbrev S10000x1 : Shape := ⟨2, ![10000, 1]⟩
abbrev S80x10000 : Shape := ⟨2, ![80, 10000]⟩
abbrev S80x16 : Shape := ⟨2, ![80, 16]⟩
abbrev S80x1 : Shape := ⟨2, ![80, 1]⟩
abbrev S80 : Shape := ⟨1, ![80]⟩
abbrev S_ : Shape := ⟨0, ![]⟩
abbrev S10000 : Shape := ⟨1, ![10000]⟩
abbrev S16 : Shape := ⟨1, ![16]⟩

abbrev nBuf : Space → Nat
  | .hbm => 38
  | .vmem => 13
  | .smem => 0
  | _ => 0

abbrev bufTy : (tb : Table) → Fin (tcTables nBuf tb) → BufTy
  | .hbm, ⟨0, _⟩ => ⟨S10000x10000, .f32⟩
  | .hbm, ⟨1, _⟩ => ⟨S10000x10000, .f32⟩
  | .hbm, ⟨2, _⟩ => ⟨S10000x16, .f32⟩
  | .hbm, ⟨3, _⟩ => ⟨S10000x16, .bf16⟩
  | .hbm, ⟨4, _⟩ => ⟨S10000x1, .f32⟩
  | .hbm, ⟨5, _⟩ => ⟨S10000x1, .f32⟩
  | .hbm, ⟨6, _⟩ => ⟨S10000x1, .f32⟩
  | .hbm, ⟨7, _⟩ => ⟨S_, .f32⟩
  | .hbm, ⟨8, _⟩ => ⟨S_, .f32⟩
  | .hbm, ⟨9, _⟩ => ⟨S10000, .f32⟩
  | .hbm, ⟨10, _⟩ => ⟨S10000, .f32⟩
  | .hbm, ⟨11, _⟩ => ⟨S10000, .f32⟩
  | .hbm, ⟨12, _⟩ => ⟨S10000, .f32⟩
  | .hbm, ⟨13, _⟩ => ⟨S10000, .f32⟩
  | .hbm, ⟨14, _⟩ => ⟨S10000, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S10000, .f32⟩
  | .hbm, ⟨35, _⟩ => ⟨S10000, .f32⟩
  | .hbm, ⟨36, _⟩ => ⟨S10000, .f32⟩
  | .hbm, ⟨37, _⟩ => ⟨S10000, .f32⟩
  | .local _ .vmem, ⟨0, _⟩ => ⟨S80x10000, .f32⟩
  | .local _ .vmem, ⟨1, _⟩ => ⟨S80x10000, .f32⟩
  | .local _ .vmem, ⟨2, _⟩ => ⟨S80x10000, .f32⟩
  | .local _ .vmem, ⟨3, _⟩ => ⟨S80x10000, .f32⟩
  | .local _ .vmem, ⟨4, _⟩ => ⟨S80x16, .f32⟩
  | .local _ .vmem, ⟨5, _⟩ => ⟨S80x16, .f32⟩
  | .local _ .vmem, ⟨6, _⟩ => ⟨S10000x16, .bf16⟩
  | .local _ .vmem, ⟨7, _⟩ => ⟨S80x1, .f32⟩
  | .local _ .vmem, ⟨8, _⟩ => ⟨S80x1, .f32⟩
  | .local _ .vmem, ⟨9, _⟩ => ⟨S80x1, .f32⟩
  | .local _ .vmem, ⟨10, _⟩ => ⟨S80x1, .f32⟩
  | .local _ .vmem, ⟨11, _⟩ => ⟨S80x1, .f32⟩
  | .local _ .vmem, ⟨12, _⟩ => ⟨S80x1, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S80x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S80x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S80x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S10000x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S80x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S80x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S80x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  inb_S80x10000_S80x10000_0_0 : ∀ a, (![0, 0] : Fin 2 → Nat) a + S80x10000.size a ≤ S80x10000.size a
  h_S80x10000 : 0 < S80x10000.numel
  inb_S80x16_S80x16_0_0 : ∀ a, (![0, 0] : Fin 2 → Nat) a + S80x16.size a ≤ S80x16.size a
  h_S80x16 : 0 < S80x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  reduces_S80x16_S80 : S80x16.Reduces [1] S80
  shapeCasts_S80_S80x1 : S80.ShapeCasts S80x1
  inb_S80x1_S80x1_0_0 : ∀ a, (![0, 0] : Fin 2 → Nat) a + S80x1.size a ≤ S80x1.size a
  h_S80x1 : 0 < S80x1.numel
  reduces_S80x10000_S80 : S80x10000.Reduces [1] S80
  reducesTo_S10000x1_S_d0_1 : S10000x1.ReducesTo [0, 1] S_
  h_S_ : 0 < S_.numel
  shapeCasts_S10000x1_S10000 : S10000x1.ShapeCasts S10000
  bcast_S_S10000 : S_.BroadcastsInDim S10000 (![] : Fin 0 → Fin S10000.rank)
  reducesTo_S10000x16_S16_d0 : S10000x16.ReducesTo [0] S16
  reducesTo_S16_S_d0 : S16.ReducesTo [0] S_
  reducesTo_S10000_S_d0 : S10000.ReducesTo [0] S_
  dot_S80x10000_S10000x16_S80x16_1_0_0_1_n_n_wf : DotDims.WF S80x10000 S10000x16 S80x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S80x10000.size a ≤ S10000x10000.size a
  hwx0_0 : ∀ i : grid0.Coords, EltTy.bits .f32 = 32 ∨ (Rect.block (s := S10000x10000) S80x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S80x10000.size a ≤ S10000x10000.size a
  hwx0_1 : ∀ i : grid0.Coords, EltTy.bits .f32 = 32 ∨ (Rect.block (s := S10000x10000) S80x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S80x16.size a ≤ S10000x16.size a
  hwx0_2 : ∀ i : grid0.Coords, EltTy.bits .f32 = 32 ∨ (Rect.block (s := S10000x16) S80x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10000x16.size a ≤ S10000x16.size a
  hwx0_3 : ∀ i : grid0.Coords, EltTy.bits .bf16 = 32 ∨ (Rect.block (s := S10000x16) S10000x16.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S80x1.size a ≤ S10000x1.size a
  hwx0_4 : ∀ i : grid0.Coords, EltTy.bits .f32 = 32 ∨ (Rect.block (s := S10000x1) S80x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S80x1.size a ≤ S10000x1.size a
  hwx0_5 : ∀ i : grid0.Coords, EltTy.bits .f32 = 32 ∨ (Rect.block (s := S10000x1) S80x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S80x1.size a ≤ S10000x1.size a
  hwx0_6 : ∀ i : grid0.Coords, EltTy.bits .f32 = 32 ∨ (Rect.block (s := S10000x1) S80x1.size (cc0_transform_6 i) (hinb0_6 i)).WholeWords (EltTy.packing .f32)

variable [Facts₀]

def dot_S80x10000_S10000x16_S80x16_1_0_0_1_n_n : DotDims S80x10000 S10000x16 S80x16 where
  lhsContracting := [1]
  rhsContracting := [0]
  lhsNonContracting := [0]
  rhsNonContracting := [1]
  lhsBatch := []
  rhsBatch := []
  wf := dot_S80x10000_S10000x16_S80x16_1_0_0_1_n_n_wf

abbrev win0_0 : Pipeline.Window sig grid0 :=
  Pipeline.Window.ofSpec (Memref.whole main_arg0) S80x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S80x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S80x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S10000x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S80x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S80x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_2) S80x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x16 : Shape := ⟨2, ![10000, 16]⟩
abbrev S_ : Shape := ⟨0, ![]⟩
abbrev S10000 : Shape := ⟨1, ![10000]⟩
abbrev S16 : Shape := ⟨1, ![16]⟩

abbrev nBuf : Space → Nat
  | .hbm => 41
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x10000, .f32⟩
  | .hbm, ⟨2, _⟩ => ⟨S10000x16, .f32⟩
  | .hbm, ⟨3, _⟩ => ⟨S_, .f32⟩
  | .hbm, ⟨4, _⟩ => ⟨S_, .f32⟩
  | .hbm, ⟨5, _⟩ => ⟨S10000x16, .f32⟩
  | .hbm, ⟨6, _⟩ => ⟨S10000x16, .f32⟩
  | .hbm, ⟨7, _⟩ => ⟨S_, .f32⟩
  | .hbm, ⟨8, _⟩ => ⟨S10000, .f32⟩
  | .hbm, ⟨9, _⟩ => ⟨S10000, .f32⟩
  | .hbm, ⟨10, _⟩ => ⟨S10000, .f32⟩
  | .hbm, ⟨11, _⟩ => ⟨S10000x16, .f32⟩
  | .hbm, ⟨12, _⟩ => ⟨S10000x16, .f32⟩
  | .hbm, ⟨13, _⟩ => ⟨S_, .f32⟩
  | .hbm, ⟨14, _⟩ => ⟨S10000, .f32⟩
  | .hbm, ⟨15, _⟩ => ⟨S10000, .f32⟩
  | .hbm, ⟨16, _⟩ => ⟨S10000, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S10000, .f32⟩
  | .hbm, ⟨38, _⟩ => ⟨S10000, .f32⟩
  | .hbm, ⟨39, _⟩ => ⟨S10000, .f32⟩
  | .hbm, ⟨40, _⟩ => ⟨S10000, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_call0_v0 : Ref sig .tc := ⟨.hbm, 19, rfl⟩
abbrev main_call0_cst : Ref sig .tc := ⟨.hbm, 20, rfl⟩
abbrev main_call0_v1 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_cst_6 : Ref sig .tc := ⟨.hbm, 30, rfl⟩
abbrev main_v17 : Ref sig .tc := ⟨.hbm, 31, rfl⟩
abbrev main_cst_7 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]

class Facts₀ : Prop where
  reducesTo_S10000x10000_S_d0_1 : S10000x10000.ReducesTo [0, 1] S_
  h_S_ : 0 < S_.numel
  reducesTo_S10000x16_S10000_d1 : S10000x16.ReducesTo [1] S10000
  bcast_S_S10000 : S_.BroadcastsInDim S10000 (![] : Fin 0 → Fin S10000.rank)
  reducesTo_S10000x16_S16_d0 : S10000x16.ReducesTo [0] S16
  reducesTo_S16_S_d0 : S16.ReducesTo [0] S_
  reducesTo_S10000_S_d0 : S10000.ReducesTo [0] S_
  dot_S10000x10000_S10000x16_S10000x16_1_0_0_1_n_n_wf : DotDims.WF S10000x10000 S10000x16 S10000x16 [1] [0] [0] [1] [] []

variable [Facts₀]

def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.LibColumnSum.lean ====
/-
  Two readings at an index that a sum along the second axis, kept as a one-entry-per-row column, needs, at any
  extents `a`, `b`.

  A vector of `a` entries recast as a column of `a` rows and one entry per row has, in row `i`, the vector's entry `i`: the
  two positions are the same in row-major order, `i = i·1 + 0`. And the sum of an `a × b` array along its second axis,
  from the zero word, has at `r` the sum over `k` of the array's entries `(r, k)`.
-/
import Idealize.ShloMosaic.Lib.ValueIdx
import Idealize.ShloMosaic.Lib.Pipeline.Value
import Idealize.ShloMosaic.PureOps.Ideal.Laws

noncomputable section

namespace Cert.Lib.ColumnSum

open Idealize.ShloMosaic Idealize.ShloMosaic.ValueIdx

/-- An `[a]` array cast to `[a, 1]` reads, at `(i, u)`, the operand at `i`, whatever the unit coordinate `u`. -/
theorem shapeCast_column_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` array of extended reals along its second axis, from the zero word, reads at `r` the sum over
    `k` of the entries `(r, k)`. -/
theorem lane_sum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (funext fun d => Fin.ext (by
      match d with
      | ⟨0, _⟩ => rfl
      | ⟨1, _⟩ => rfl)))

end Cert.Lib.ColumnSum

end
-- ==== Proof.LibTileRead.lean ====
/-
  Readings at an index given by coordinates that a tile of pairwise quantities meets, over generic extents `a`, `b`.

  * A transposed matrix `[a, b] → [b, a]` reads at `(q, p)` the matrix at `(p, q)` (`transpose_swap_apply`).
  * A row `[1, b]` stretched over `[a, b]` reads at `(p, q)` the row at `(0, q)` (`broadcastTo_row_apply`).
  * A column `[a, 1]` recast as a vector `[a]`, a vector `[b]` recast as a row `[1, b]`, and a row `[1, b]` recast
    as `[1, 1, b]`, each read where the row-major position says (`shapeCast_uncolumn_apply`, `shapeCast_row_apply`,
    `shapeCast_row3_apply`).
  * The minimum of an `[a, b]` array of extended reals along its second axis, from the word of `+∞`, reads at `p` the
    infimum over `q` of the entries `(p, q)` (`rowMin_apply`); along its first axis it reads at `q` the infimum over
    `p` (`colMin_apply`): a fold of `min` from the top element over a whole finite type is the infimum.
  * The host's minimum-reduction of an `[a, b]` array along its first axis, from a scalar holding the word of `+∞`,
    likewise (`hostColMin_apply`).
  * A plain matrix product `[M, K] × [K, N] → [M, N]` (`PlainDot`: the left operand's second axis contracted with the
    right operand's first) into the zero accumulator reads at `(p, n)` the sum over `k` of `x (p, k) · w (k, n)`
    (`matmul_zero_plain_apply`).
-/
import Idealize.ShloMosaic.Lib.ValueIdx
import Idealize.ShloMosaic.Lib.Pipeline.Value
import Idealize.ShloMosaic.PureOps.Ideal.Laws

noncomputable section

namespace Cert.Lib.TileRead

open Idealize.ShloMosaic Idealize.ShloMosaic.ValueIdx

/-- The word of `+∞` is the top element of the extended reals. -/
theorem inf_word : Ideal.ofBits .f32 0x7F800000#32 = (⊤ : EReal) := by simp [Ideal.ofBits, Ideal.ieee]

/-- The fold of `min` from `⊤` over a whole finite type is the infimum of the family. -/
theorem fold_min_top {ι : Type*} [Fintype ι] (f : ι → EReal) : (Finset.univ : Finset ι).fold min ⊤ f = ⨅ k, f k := by
  apply le_antisymm
  · exact le_iInf fun k => (Finset.fold_min_le _).2 (Or.inr ⟨k, Finset.mem_univ k, le_rfl⟩)
  · exact (Finset.le_fold_min _).2 ⟨le_top, fun k _ => iInf_le f k⟩

/-! ## Layout -/

/-- A matrix transposed reads at `(q, p)` the matrix at `(p, q)`. -/
theorem transpose_swap_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun bx => by
    match bx with
    | ⟨0, _⟩ => rfl
    | ⟨1, _⟩ => rfl

/-- A row `[1, b]` broadcast to `[a, b]` reads, at `(p, q)`, the row at `(0, q)`. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- An `[a, 1]` column cast to `[a]` reads, at `p`, the column at `(p, 0)`. -/
theorem shapeCast_uncolumn_apply {α : Type} {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A `[b]` vector cast to a `[1, b]` row reads, at `(0, q)`, the vector at `q`. -/
theorem shapeCast_row_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

/-- A `[1, b]` row cast to `[1, 1, b]` reads, at `(0, 0, q)`, the row at `(0, q)`. -/
theorem shapeCast_row3_apply {α : Type} {b : ℕ} (x : (⟨2, ![1, b]⟩ : Shape).Idx → α)
    (h : (⟨2, ![1, b]⟩ : Shape).ShapeCasts ⟨3, ![1, 1, b]⟩) (u v : Fin 1) (q : Fin b) :
    shapeCast ⟨3, ![1, 1, b]⟩ x h (ix3 u v q) = x (ix2 (0 : Fin 1) q) :=
  shapeCast_apply x h _ _ (by
    have hu : u.val = 0 := by omega
    have hv : v.val = 0 := by omega
    rw [Shape.rowMajor_val_three, Shape.rowMajor_val_two]
    show 0 * b + q.val = (u.val * 1 + v.val) * b + q.val
    rw [hu, hv])

/-! ## Minima along one axis of a matrix -/

/-- The minimum along the second axis, from the word of `+∞`, at `p`: the infimum of row `p`. -/
theorem rowMin_apply {a b : ℕ} (v : FVec Ideal ⟨2, ![a, b]⟩ .f32) (h : (⟨2, ![a, b]⟩ : Shape).Reduces [1] ⟨1, ![a]⟩)
    (hφ : FKind.Formats .f32) (hacc : (0x7F800000#32 : BitVec 32) = FKind.minimumf.neutral .f32 hφ) (p : Fin a) :
    multiReduction .minimumf [1] ⟨1, ![a]⟩ v 0x7F800000#32 h hφ hacc (ix1 p) = ⨅ q : Fin b, v (ix2 p q) := by
  refine (multiReduction_minimumf_eq_fold v _ h hφ hacc (ix1 p)).trans ?_
  refine (h.fold_filter_drop_single FloatOps.minimumf _ v (ix1 p)).trans ?_
  show Finset.fold min (Ideal.ofBits .f32 0x7F800000#32) (fun q : Fin b => v (h.lift (ix1 p) q)) Finset.univ = _
  rw [inf_word, fold_min_top]
  exact iInf_congr fun q => congrArg v (funext fun d => Fin.ext (by
    match d with
    | ⟨0, _⟩ => rfl
    | ⟨1, _⟩ => rfl))

/-- The minimum along the first axis, from the word of `+∞`, at `q`: the infimum of column `q`. -/
theorem colMin_apply {a b : ℕ} (v : FVec Ideal ⟨2, ![a, b]⟩ .f32) (h : (⟨2, ![a, b]⟩ : Shape).Reduces [0] ⟨1, ![b]⟩)
    (hφ : FKind.Formats .f32) (hacc : (0x7F800000#32 : BitVec 32) = FKind.minimumf.neutral .f32 hφ) (q : Fin b) :
    multiReduction .minimumf [0] ⟨1, ![b]⟩ v 0x7F800000#32 h hφ hacc (ix1 q) = ⨅ p : Fin a, v (ix2 p q) := by
  refine (multiReduction_minimumf_eq_fold v _ h hφ hacc (ix1 q)).trans ?_
  refine (h.fold_filter_drop_single FloatOps.minimumf _ v (ix1 q)).trans ?_
  show Finset.fold min (Ideal.ofBits .f32 0x7F800000#32) (fun p : Fin a => v (h.lift (ix1 q) p)) Finset.univ = _
  rw [inf_word, fold_min_top]
  exact iInf_congr fun p => congrArg v (funext fun d => Fin.ext (by
    match d with
    | ⟨0, _⟩ => rfl
    | ⟨1, _⟩ => rfl))

/-- The host's minimum-reduction along the first axis, from a scalar holding the word of `+∞`, at `q`. -/
theorem hostColMin_apply {a b : ℕ} {u : Shape} (x : (⟨2, ![a, b]⟩ : Shape).Idx → EReal)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.minimumf (F := Ideal) (φ := .f32)) x (constant (F := Ideal) u .f32 0x7F800000#32) h' hu (ix1 q)
      = ⨅ p : Fin a, x (ix2 p q) := by
  refine (Host.reduce_eq_fold_single (FloatOps.minimumf (F := Ideal) (φ := .f32)) x _ h' h hu (ix1 q)).trans ?_
  show Finset.fold min (Ideal.ofBits .f32 0x7F800000#32) (fun p : Fin a => x (h.lift (ix1 q) p)) Finset.univ = _
  rw [inf_word, fold_min_top]
  exact iInf_congr fun p => congrArg x (funext fun d => Fin.ext (by
    match d with
    | ⟨0, _⟩ => rfl
    | ⟨1, _⟩ => rfl))

/-! ## A plain matrix product -/

/-- The dimension numbers of a plain product: one contracted axis of extent `K`; the left operand's index at output `j`
    and contraction index `q` is `(j 0, q)`, the right operand's `(q, j 1)`. -/
structure PlainDot {M K N : Nat} (d : DotDims (⟨2, ![M, K]⟩ : Shape) (⟨2, ![K, N]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

variable {M K N : Nat}

/-- The contraction's sum at output `j` is the sum over `k : Fin K` of `x (j 0, k) · w (k, j 1)`. -/
theorem sum_contr_plain_eq (d : DotDims (⟨2, ![M, K]⟩ : Shape) (⟨2, ![K, N]⟩ : Shape) (⟨2, ![M, N]⟩ : Shape)) (h : PlainDot d)
    (x : (⟨2, ![M, K]⟩ : Shape).Idx → EReal) (w : (⟨2, ![K, N]⟩ : Shape).Idx → EReal) (j : (⟨2, ![M, N]⟩ : Shape).Idx) :
    ∑ q : d.contr.Idx, x (d.lhsIdx j q) * w (d.rhsIdx j q) = ∑ k : Fin K, x (ix2 (j 0) k) * w (ix2 k (j 1)) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 (j 0) k := funext fun a => Fin.ext (by
    match a with
    | ⟨0, _⟩ => exact h.l0 _ _
    | ⟨1, _⟩ => exact (h.l1 _ _).trans hk)
  have er : d.rhsIdx j ((contrEquiv1 d K h.hr h.hs).symm k) = ix2 k (j 1) := funext fun a => Fin.ext (by
    match a with
    | ⟨0, _⟩ => exact (h.r0 _ _).trans hk
    | ⟨1, _⟩ => exact h.r1 _ _)
  exact congrArg₂ (· * ·) (congrArg x el) (congrArg w er)

/-- The product into the zero accumulator, read at `(p, n)`. -/
theorem matmul_zero_plain_apply {φ₁ φ₂ : FTy}
    (d : DotDims (⟨2, ![M, K]⟩ : Shape) (⟨2, ![K, N]⟩ : Shape) (⟨2, ![M, N]⟩ : Shape)) (hd : PlainDot d)
    (prec : Option ContractPrecision) (lhs : FVec Ideal ⟨2, ![M, K]⟩ φ₁) (rhs : FVec Ideal ⟨2, ![K, N]⟩ φ₂) (p : Fin M) (n : Fin N) :
    matmul d prec lhs rhs (constant ⟨2, ![M, N]⟩ .f32 0x00000000#32) (ix2 p n) = ∑ k : Fin K, lhs (ix2 p k) * rhs (ix2 k n) :=
  (Ideal.matmul_constant_zero_apply d prec lhs rhs (ix2 p n)).trans (sum_contr_plain_eq d hd lhs rhs (ix2 p n))

end Cert.Lib.TileRead

end
-- ==== Proof.Payload.lean ====
/-
  What the kernel body computes from the blocks it loads, entry by entry, over the extended reals.

  At a grid point the body holds 80 rows `X` of a 10000 × 10000 matrix, the same 80 rows `P` of the assignment
  matrix, and the whole assignment matrix `Q` (rounded to a shorter float format, which changes nothing here).
  It forms the 80 × 16 product `X Q`, multiplies it entry by entry with `P`, and sums each row: entry `r` of the
  stored column is `∑ k, P (r, k) · ∑ j, X (r, j) · Q (j, k)`. The third stored column holds the plain row sums
  `∑ j, X (r, j)`.
-/
import proofs.«121201_j4621384810785_2_alg».proof.Proof.Gen.KernelIdeal.Skeleton
import proofs.«121201_j4621384810785_2_alg».proof.Proof.LibColumnSum
import proofs.«121201_j4621384810785_2_alg».proof.Proof.LibTileRead

noncomputable section

namespace Cert.KernelIdeal.Body

open Cert.KernelIdeal Cert.KernelIdeal.Gen Idealize.ShloMosaic Idealize.ShloMosaic.ValueIdx

/-- The body's matrix product contracts the left operand's second axis with the right operand's first. -/
theorem plain_dot : Cert.Lib.TileRead.PlainDot (M := 80) (K := 10000) (N := 16) dot_S80x10000_S10000x16_S80x16_1_0_0_1_n_n where
  hr := rfl
  hs := rfl
  l0 := fun j q => by
    unfold DotDims.lhsIdx
    rw [dif_neg (show ¬(0 : Fin S80x10000.rank) ∈ dot_S80x10000_S10000x16_S80x16_1_0_0_1_n_n.lhsBatch by decide),
      dif_pos (show (0 : Fin S80x10000.rank) ∈ dot_S80x10000_S10000x16_S80x16_1_0_0_1_n_n.lhsNonContracting by decide)]
    rfl
  l1 := fun j q => dot_S80x10000_S10000x16_S80x16_1_0_0_1_n_n.lhsIdx_val_of_single rfl j q
  r0 := fun j q => dot_S80x10000_S10000x16_S80x16_1_0_0_1_n_n.rhsIdx_val_of_single rfl j q
  r1 := fun j q => by
    unfold DotDims.rhsIdx
    rw [dif_neg (show ¬(1 : Fin S10000x16.rank) ∈ dot_S80x10000_S10000x16_S80x16_1_0_0_1_n_n.rhsBatch by decide),
      dif_pos (show (1 : Fin S10000x16.rank) ∈ dot_S80x10000_S10000x16_S80x16_1_0_0_1_n_n.rhsNonContracting by decide)]
    rfl

/-- Entry `r` of the first stored column: row `r` of `P ⊙ (X Q)` summed. -/
theorem score_entry (x0 : Vec Ideal S80x10000 .f32) (x2 : Vec Ideal S80x16 .f32) (x3 : Vec Ideal S10000x16 .bf16)
    (r : Fin 80) (u : Fin 1) :
    k0_pay2 (F := Ideal) x0 x2 x3 (ix2 r u) = ∑ k : Fin 16, x2 (ix2 r k) * ∑ j : Fin 10000, x0 (ix2 r j) * x3 (ix2 j k) := by
  unfold k0_pay2 k0_pay1
  refine (Cert.Lib.ColumnSum.shapeCast_column_apply _ _ r u).trans ?_
  refine (Cert.Lib.ColumnSum.lane_sum_apply _ _ _ _ r).trans ?_
  refine Finset.sum_congr rfl fun k _ => ?_
  refine congrArg (x2 (ix2 r k) * ·) ?_
  refine (Cert.Lib.TileRead.matmul_zero_plain_apply _ plain_dot none _ _ r k).trans ?_
  refine Finset.sum_congr rfl fun j _ => ?_
  rw [shapeCast_self]
  rfl

/-- The second stored column is the same function of the second matrix's rows. -/
theorem score_entry' (x1 : Vec Ideal S80x10000 .f32) (x2 : Vec Ideal S80x16 .f32) (x3 : Vec Ideal S10000x16 .bf16)
    (r : Fin 80) (u : Fin 1) :
    k0_pay3 (F := Ideal) x1 x2 x3 (ix2 r u) = ∑ k : Fin 16, x2 (ix2 r k) * ∑ j : Fin 10000, x1 (ix2 r j) * x3 (ix2 j k) := by
  unfold k0_pay3 k0_pay1
  refine (Cert.Lib.ColumnSum.shapeCast_column_apply _ _ r u).trans ?_
  refine (Cert.Lib.ColumnSum.lane_sum_apply _ _ _ _ r).trans ?_
  refine Finset.sum_congr rfl fun k _ => ?_
  refine congrArg (x2 (ix2 r k) * ·) ?_
  refine (Cert.Lib.TileRead.matmul_zero_plain_apply _ plain_dot none _ _ r k).trans ?_
  refine Finset.sum_congr rfl fun j _ => ?_
  rw [shapeCast_self]
  rfl

/-- Entry `r` of the third stored column: the sum of row `r` of `X`. -/
theorem rowsum_entry (x0 : Vec Ideal S80x10000 .f32) (r : Fin 80) (u : Fin 1) :
    k0_pay4 (F := Ideal) x0 (ix2 r u) = ∑ j : Fin 10000, x0 (ix2 r j) := by
  unfold k0_pay4
  refine (Cert.Lib.ColumnSum.shapeCast_column_apply _ _ r u).trans ?_
  exact Cert.Lib.ColumnSum.lane_sum_apply _ _ _ _ r

end Cert.KernelIdeal.Body

end
-- ==== Proof.LibIndexSums.lean ====
/-
  Sums over the indices of a vector and of a one-entry-per-row column, as sums over the row coordinate.

  An index of an `[n]` array is its one coordinate, and an index of an `[n, 1]` array is its row coordinate beside the
  only column coordinate `0`; so a sum over either index set is the sum over `a : Fin n` of the summand at `a`, resp.
  at `(a, 0)`.
-/
import Idealize.ShloMosaic.Lib.ValueIdx

noncomputable section

namespace Cert.Lib.IndexSums

open Idealize.ShloMosaic Idealize.ShloMosaic.ValueIdx

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

/-- A sum over the indices of an `[n]` array is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of an `[n, 1]` array is the sum over its row coordinate, the column coordinate `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.Lib.IndexSums

end
-- ==== Proof.Loss.lean ====
/-
  The sub-clustering loss over the extended reals, for an adjacency matrix `A` and an attribute matrix `B` of
  10000 × 10000 entries and a soft assignment `O` of 10000 nodes to 16 clusters.

  * The SCORE of node `r` against a matrix `A` is the `r`-th diagonal entry of `O (A O)ᵀ`, written without the
    10000 × 10000 product: `score A O r = ∑ k, O (r, k) · ∑ j, A (r, j) · O (j, k)`.
  * The TOTAL of `A` is the sum of all its entries. Summing each row first and the row sums afterwards gives the
    same number: a finite sum in a commutative monoid may be taken in any grouping (`total_by_rows`), and the
    extended reals are one under `+`; no entry needs to be finite.
  * From the two score vectors, the total and `O`, the four results are: each score vector divided by the total and
    negated, their negated sum, and the scalar `-(∑ s/t + ∑ a/t - (‖∑ᵢ O (i, ·)‖ / 10000 · c - 1))` where `c` is the
    square root of the number of clusters. The factor `c` is a parameter here: one program spells it as the number
    `4`, the other as `√16`, and `√16 = 4` exactly (`sqrt_sixteen`).
-/
import Idealize.ShloMosaic.Lib.ValueIdx
import Idealize.ShloMosaic.Lib.Pipeline.Value
import Idealize.ShloMosaic.PureOps.Ideal.Laws
import proofs.«121201_j4621384810785_2_alg».proof.Proof.LibIndexSums

noncomputable section

namespace Cert.Loss

open Idealize.ShloMosaic Idealize.ShloMosaic.ValueIdx

abbrev SNN : Shape := ⟨2, ![10000, 10000]⟩
abbrev SNK : Shape := ⟨2, ![10000, 16]⟩
abbrev SN1 : Shape := ⟨2, ![10000, 1]⟩
abbrev SN : Shape := ⟨1, ![10000]⟩
abbrev SK : Shape := ⟨1, ![16]⟩
abbrev S0 : Shape := ⟨0, ![]⟩

theorem hS0 : 0 < S0.numel := by decide
theorem bcN : S0.BroadcastsInDim SN (![] : Fin 0 → Fin SN.rank) := by decide
theorem redN : SN.ReducesTo [0] S0 := by decide
theorem redNK : SNK.ReducesTo [0] SK := by decide
theorem redK : SK.ReducesTo [0] S0 := by decide
theorem redN1 : SN1.ReducesTo [0, 1] S0 := by decide
theorem redNN : SNN.ReducesTo [0, 1] S0 := by decide
theorem castN1 : SN1.ShapeCasts SN := by decide

/-! ## The scores and the total -/

/-- Node `r`'s score against `A`: `∑ k, O (r, k) · (A O) (r, k)`. -/
def score (A : SNN.Idx → EReal) (O : SNK.Idx → EReal) (r : Fin 10000) : EReal :=
  ∑ k : Fin 16, O (ix2 r k) * ∑ j : Fin 10000, A (ix2 r j) * O (ix2 j k)

/-- The scores as a column, one entry per node. -/
def scoreColumn (A : SNN.Idx → EReal) (O : SNK.Idx → EReal) : SN1.Idx → EReal :=
  fun i => score A O ⟨(i 0).val, (i 0).isLt⟩

/-- The sum of row `r` of `A`. -/
def rowSum (A : SNN.Idx → EReal) (r : Fin 10000) : EReal := ∑ j : Fin 10000, A (ix2 r j)

/-- The row sums as a column. -/
def rowSumColumn (A : SNN.Idx → EReal) : SN1.Idx → EReal :=
  fun i => rowSum A ⟨(i 0).val, (i 0).isLt⟩

/-- The sum of the row sums is the sum of all entries. -/
theorem total_by_rows (A : SNN.Idx → EReal) : ∑ i : SN1.Idx, rowSumColumn A i = ∑ j : SNN.Idx, A j := by
  rw [Cert.Lib.IndexSums.sum_idx_column, sum_idx2]
  rfl

/-- The scores as the programs hold them: the column recast as a vector. -/
abbrev scoreVec (A : SNN.Idx → EReal) (O : SNK.Idx → EReal) : FVec Ideal SN .f32 :=
  shapeCast SN (scoreColumn A O) castN1

/-- The sum of a column's entries, as a host sum from zero. -/
abbrev columnTotal (R : SN1.Idx → EReal) : FVec Ideal S0 .f32 :=
  Host.reduceAdd (F := Ideal) (R : FVec Ideal SN1 .f32) (constant (F := Ideal) S0 .f32 0x00000000#32) redN1 hS0

/-! ## The four results from the scores, the total and the assignment -/

/-- A score vector divided, entry by entry, by the total. -/
def share (s : FVec Ideal SN .f32) (tot : FVec Ideal S0 .f32) : FVec Ideal SN .f32 :=
  Host.divf (F := Ideal) s (broadcastInDim SN ![] bcN tot)

/-- The regulariser `‖∑ᵢ O (i, ·)‖ / 10000 · c - 1`. -/
def regulariser (O : FVec Ideal SNK .f32) (c : FVec Ideal S0 .f32) : FVec Ideal S0 .f32 :=
  subf (mulf (Host.divf (F := Ideal)
      (Host.sqrt (F := Ideal) (Host.reduceAdd (F := Ideal)
        (mulf (Host.reduceAdd (F := Ideal) O (constant (F := Ideal) S0 .f32 0x00000000#32) redNK hS0)
              (Host.reduceAdd (F := Ideal) O (constant (F := Ideal) S0 .f32 0x00000000#32) redNK hS0))
        (constant (F := Ideal) S0 .f32 0x00000000#32) redK hS0))
      (constant (F := Ideal) S0 .f32 0x461C4000#32)) c)
    (constant (F := Ideal) S0 .f32 0x3F800000#32)

/-- The scalar result. -/
def clusterLoss (s a : FVec Ideal SN .f32) (tot : FVec Ideal S0 .f32) (O : FVec Ideal SNK .f32) (c : FVec Ideal S0 .f32) :
    FVec Ideal S0 .f32 :=
  Host.negf (F := Ideal) (subf
    (addf (Host.reduceAdd (F := Ideal) (share s tot) (constant (F := Ideal) S0 .f32 0x00000000#32) redN hS0)
          (Host.reduceAdd (F := Ideal) (share a tot) (constant (F := Ideal) S0 .f32 0x00000000#32) redN hS0))
    (regulariser O c))

/-- A share, negated. -/
def negShare (s : FVec Ideal SN .f32) (tot : FVec Ideal S0 .f32) : FVec Ideal SN .f32 :=
  Host.negf (F := Ideal) (share s tot)

/-- The sum of the two shares, negated. -/
def negBoth (s a : FVec Ideal SN .f32) (tot : FVec Ideal S0 .f32) : FVec Ideal SN .f32 :=
  Host.negf (F := Ideal) (addf (share s tot) (share a tot))

/-! ## The square root of the number of clusters -/

/-- The float word of `16.0` is the real `16`, that of `4.0` the real `4`. -/
theorem word_sixteen : Ideal.ofBits .f32 0x41800000#32 = ((16 : ℝ) : EReal) := by
  simp [Ideal.ofBits, Ideal.ieee, -EReal.coe_mul]; norm_num
theorem word_four : Ideal.ofBits .f32 0x40800000#32 = ((4 : ℝ) : EReal) := by
  simp [Ideal.ofBits, Ideal.ieee, -EReal.coe_mul]; norm_num

/-- `√16 = 4`, on the words the two programs print. -/
theorem sqrt_sixteen : Ideal.sqrt (Ideal.ofBits .f32 0x41800000#32) = Ideal.ofBits .f32 0x40800000#32 := by
  rw [word_sixteen, word_four, Ideal.sqrt_coe, if_neg (by norm_num)]
  rw [show (16 : ℝ) = 4 ^ 2 by norm_num, Real.sqrt_sq (by norm_num)]

/-- The scalar `4.0` is the host's square root of the scalar `16.0`. -/
theorem four_eq_sqrt_sixteen :
    constant (F := Ideal) S0 .f32 0x40800000#32 = Host.sqrt (F := Ideal) (constant (F := Ideal) S0 .f32 0x41800000#32) :=
  funext fun _ => sqrt_sixteen.symm

end Cert.Loss

end
-- ==== Proof.Blocks.lean ====
/-
  The three columns the kernel region leaves, each as ONE function of the argument matrices.

  The grid has 125 points; point `t` is handed rows `80 t … 80 t + 79` of each 10000 × 10000 matrix and of the
  assignment matrix, and the whole (rounded) assignment matrix, and writes rows `80 t … 80 t + 79` of each output
  column. Entry `r` of what it writes depends on row `80 t + r` of its inputs only, so the written block is the block
  of one whole-column function: the node scores against each matrix, and the row sums of the first. The 125 blocks
  of 80 rows tile the 10000 rows (row `i` lies in block `i / 80`), so each column ends holding that function.
-/
import proofs.«121201_j4621384810785_2_alg».proof.Proof.Gen.KernelIdeal.Frame
import proofs.«121201_j4621384810785_2_alg».proof.Proof.Payload
import proofs.«121201_j4621384810785_2_alg».proof.Proof.Loss
import Idealize.ShloMosaic.Lib.Pipeline.Value
import Idealize.ShloMosaic.Lib.StableHlo.Run

noncomputable section

namespace Cert.KernelIdeal.Arrays

open Cert.KernelIdeal Cert.KernelIdeal.Gen Idealize.ShloMosaic Idealize.ShloMosaic.TcCoe Idealize.SL.Sem
open Idealize.ShloMosaic.ValueIdx Idealize.ShloMosaic.StableHlo Cert.Loss
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The block index of every window at every point: the row windows move with the point, the whole-matrix window
    stays. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- A point's rows lie inside the matrix. -/
theorem row_lt (t : Fin cfg0.N) (r : Fin 80) : t.val * 80 + r.val < 10000 := by
  have h : t.val < 125 := lt_of_lt_of_eq t.isLt N_0
  have := r.isLt
  omega

/-! ## The arrays the region finds -/

/-- The rounded copy of the assignment matrix is, at the extended reals, the host's rounding of the argument. -/
theorem V_main_v0 (c : Dev nD) :
    (V m c main_v0 : S10000x16.Idx → EReal)
      = truncf (F := Ideal) .bf16 (m ((c : Thread nD τ).loc main_arg2) : FVec Ideal S10000x16 .f32) bitsLt_bf16_f32 := by
  show StableHlo.after hostOps0 (fun b => m (c, b)) (Proc.devRef .tc main_v0) = _
  after_results

/-! ## The input blocks at a point -/

/-- The first matrix's block at point `t` is its rows `80 t …`. -/
theorem iblk0_apply (c : Dev nD) (t : Fin cfg0.N) (r : Fin 80) (j : Fin 10000) :
    (iblk m c 0 t : Vec Ideal S80x10000 .f32) (ix2 r j)
      = (m ((c : Thread nD τ).loc main_arg0) : S10000x10000.Idx → EReal) (ix2 ⟨t.val * 80 + r.val, row_lt t r⟩ j) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t 0 * 80 + 1 * r.val = t.val * 80 + r.val; rw [e0]; omega
  | ⟨1, _⟩ => show win0_0.index t 1 * 10000 + 1 * j.val = j.val; rw [e1]; omega

/-- The second matrix's block likewise. -/
theorem iblk1_apply (c : Dev nD) (t : Fin cfg0.N) (r : Fin 80) (j : Fin 10000) :
    (iblk m c 1 t : Vec Ideal S80x10000 .f32) (ix2 r j)
      = (m ((c : Thread nD τ).loc main_arg1) : S10000x10000.Idx → EReal) (ix2 ⟨t.val * 80 + r.val, row_lt t r⟩ j) := by
  obtain ⟨-, -, e0, e1, -⟩ := idx_facts t
  unfold iblk
  rw [View.read_apply]
  show V m c main_arg1 _ = _
  rw [V_main_arg1]
  refine congrArg _ (funext fun a => Fin.ext ?_)
  match a with
  | ⟨0, _⟩ => show win0_1.index t 0 * 80 + 1 * r.val = t.val * 80 + r.val; rw [e0]; omega
  | ⟨1, _⟩ => show win0_1.index t 1 * 10000 + 1 * j.val = j.val; rw [e1]; omega

/-- The assignment matrix's row block at point `t`. -/
theorem iblk2_apply (c : Dev nD) (t : Fin cfg0.N) (r : Fin 80) (k : Fin 16) :
    (iblk m c 2 t : Vec Ideal S80x16 .f32) (ix2 r k)
      = (m ((c : Thread nD τ).loc main_arg2) : S10000x16.Idx → EReal) (ix2 ⟨t.val * 80 + r.val, row_lt t r⟩ k) := by
  obtain ⟨-, -, -, -, e0, e1, -⟩ := idx_facts t
  unfold iblk
  rw [View.read_apply]
  show V m c main_arg2 _ = _
  rw [V_main_arg2]
  refine congrArg _ (funext fun a => Fin.ext ?_)
  match a with
  | ⟨0, _⟩ => show win0_2.index t 0 * 80 + 1 * r.val = t.val * 80 + r.val; rw [e0]; omega
  | ⟨1, _⟩ => show win0_2.index t 1 * 16 + 1 * k.val = k.val; rw [e1]; omega

/-- The whole-matrix window's block is the assignment matrix at every point. -/
theorem iblk3_apply (c : Dev nD) (t : Fin cfg0.N) (j : Fin 10000) (k : Fin 16) :
    (iblk m c 3 t : Vec Ideal S10000x16 .bf16) (ix2 j k)
      = (m ((c : Thread nD τ).loc main_arg2) : S10000x16.Idx → EReal) (ix2 j k) := by
  obtain ⟨-, -, -, -, -, -, e0, e1, -⟩ := idx_facts t
  unfold iblk
  rw [View.read_apply]
  show V m c main_v0 _ = _
  rw [V_main_v0]
  show (m ((c : Thread nD τ).loc main_arg2) : S10000x16.Idx → EReal) (((cfg0.win 3).blk t).view.emb (ix2 j k)) = _
  refine congrArg _ (funext fun a => Fin.ext ?_)
  match a with
  | ⟨0, _⟩ => show win0_3.index t 0 * 10000 + 1 * j.val = j.val; rw [e0]; omega
  | ⟨1, _⟩ => show win0_3.index t 1 * 16 + 1 * k.val = k.val; rw [e1]; omega

/-! ## A block's payload is the block of the whole-column function -/

/-- Loaded blocks that are rows `80 b …` of `A` and `O`, and all of `O`, give the scores of those rows. -/
theorem block_score (A : SNN.Idx → EReal) (O : SNK.Idx → EReal)
    (x0 : Vec Ideal S80x10000 .f32) (x2 : Vec Ideal S80x16 .f32) (x3 : Vec Ideal S10000x16 .bf16)
    (b : ℕ) (hb : ∀ r : Fin 80, b * 80 + r.val < 10000)
    (h0 : ∀ (r : Fin 80) (j : Fin 10000), x0 (ix2 r j) = A (ix2 ⟨b * 80 + r.val, hb r⟩ j))
    (h2 : ∀ (r : Fin 80) (k : Fin 16), x2 (ix2 r k) = O (ix2 ⟨b * 80 + r.val, hb r⟩ k))
    (h3 : ∀ (j : Fin 10000) (k : Fin 16), x3 (ix2 j k) = O (ix2 j k))
    (y : S80x1.Idx) (i : SN1.Idx) (hi : (i 0).val = b * 80 + (y 0).val) :
    k0_pay2 (F := Ideal) x0 x2 x3 y = scoreColumn A O i := by
  have e : (⟨(i 0).val, (i 0).isLt⟩ : Fin 10000) = ⟨b * 80 + (y 0).val, hb (y 0)⟩ := Fin.ext hi
  unfold scoreColumn score
  rw [e]
  refine ((congrArg (k0_pay2 (F := Ideal) x0 x2 x3) (eq_ix2 y)).trans (Body.score_entry x0 x2 x3 (y 0) (y 1))).trans ?_
  exact Finset.sum_congr rfl fun k _ => congrArg₂ (· * ·) (h2 _ _)
    (Finset.sum_congr rfl fun j _ => congrArg₂ (· * ·) (h0 _ _) (h3 _ _))

/-- The same for the second stored column. -/
theorem block_score' (A : SNN.Idx → EReal) (O : SNK.Idx → EReal)
    (x1 : Vec Ideal S80x10000 .f32) (x2 : Vec Ideal S80x16 .f32) (x3 : Vec Ideal S10000x16 .bf16)
    (b : ℕ) (hb : ∀ r : Fin 80, b * 80 + r.val < 10000)
    (h1 : ∀ (r : Fin 80) (j : Fin 10000), x1 (ix2 r j) = A (ix2 ⟨b * 80 + r.val, hb r⟩ j))
    (h2 : ∀ (r : Fin 80) (k : Fin 16), x2 (ix2 r k) = O (ix2 ⟨b * 80 + r.val, hb r⟩ k))
    (h3 : ∀ (j : Fin 10000) (k : Fin 16), x3 (ix2 j k) = O (ix2 j k))
    (y : S80x1.Idx) (i : SN1.Idx) (hi : (i 0).val = b * 80 + (y 0).val) :
    k0_pay3 (F := Ideal) x1 x2 x3 y = scoreColumn A O i := by
  have e : (⟨(i 0).val, (i 0).isLt⟩ : Fin 10000) = ⟨b * 80 + (y 0).val, hb (y 0)⟩ := Fin.ext hi
  unfold scoreColumn score
  rw [e]
  refine ((congrArg (k0_pay3 (F := Ideal) x1 x2 x3) (eq_ix2 y)).trans (Body.score_entry' x1 x2 x3 (y 0) (y 1))).trans ?_
  exact Finset.sum_congr rfl fun k _ => congrArg₂ (· * ·) (h2 _ _)
    (Finset.sum_congr rfl fun j _ => congrArg₂ (· * ·) (h1 _ _) (h3 _ _))

/-- A loaded block that is rows `80 b …` of `A` gives the sums of those rows. -/
theorem block_rowsum (A : SNN.Idx → EReal) (x0 : Vec Ideal S80x10000 .f32)
    (b : ℕ) (hb : ∀ r : Fin 80, b * 80 + r.val < 10000)
    (h0 : ∀ (r : Fin 80) (j : Fin 10000), x0 (ix2 r j) = A (ix2 ⟨b * 80 + r.val, hb r⟩ j))
    (y : S80x1.Idx) (i : SN1.Idx) (hi : (i 0).val = b * 80 + (y 0).val) :
    k0_pay4 (F := Ideal) x0 y = rowSumColumn A i := by
  have e : (⟨(i 0).val, (i 0).isLt⟩ : Fin 10000) = ⟨b * 80 + (y 0).val, hb (y 0)⟩ := Fin.ext hi
  unfold rowSumColumn rowSum
  rw [e]
  refine ((congrArg (k0_pay4 (F := Ideal) x0) (eq_ix2 y)).trans (Body.rowsum_entry x0 (y 0) (y 1))).trans ?_
  exact Finset.sum_congr rfl fun j _ => h0 _ _

/-! ## What each point writes back -/

/-- Point `t` writes rows `80 t …` of the scores against the first matrix into the first output column. -/
theorem flushed4_eq (c : Dev nD) (t : Fin cfg0.N) :
    (dats m 0 c).flushed 4 t = ((cfg0.win 4).blk t).view.read (Elt Ideal)
      (scoreColumn (m ((c : Thread nD τ).loc main_arg0)) (m ((c : Thread nD τ).loc main_arg2))) := by
  show (cfg0.win 4).cut (grid0.coords t) ((dats m 0 c).after 4 t) = _
  rw [after0_4]
  unfold out0_4
  rw [View.canon_unit_zero hz]
  simp only [View.ld_unit_zero (S := S80x10000) hz, View.ld_unit_zero (S := S80x16) hz, View.ld_unit_zero (S := S10000x16) hz]
  obtain ⟨-, -, -, -, -, -, -, -, e8, -⟩ := idx_facts t
  funext y
  rw [View.read_apply]
  refine block_score _ _ (iblk m c 0 t) (iblk m c 2 t) (iblk m c 3 t) t.val (row_lt t)
    (iblk0_apply m c t) (iblk2_apply m c t) (iblk3_apply m c t) y _ ?_
  show win0_4.index t 0 * 80 + 1 * (y 0).val = t.val * 80 + (y 0).val
  rw [e8]; omega

/-- Point `t` writes rows `80 t …` of the scores against the second matrix into the second output column. -/
theorem flushed5_eq (c : Dev nD) (t : Fin cfg0.N) :
    (dats m 0 c).flushed 5 t = ((cfg0.win 5).blk t).view.read (Elt Ideal)
      (scoreColumn (m ((c : Thread nD τ).loc main_arg1)) (m ((c : Thread nD τ).loc main_arg2))) := by
  show (cfg0.win 5).cut (grid0.coords t) ((dats m 0 c).after 5 t) = _
  rw [after0_5]
  unfold out0_5
  rw [View.canon_unit_zero hz]
  simp only [View.ld_unit_zero (S := S80x10000) hz, View.ld_unit_zero (S := S80x16) hz, View.ld_unit_zero (S := S10000x16) hz]
  obtain ⟨-, -, -, -, -, -, -, -, -, -, e10, -⟩ := idx_facts t
  funext y
  rw [View.read_apply]
  refine block_score' _ _ (iblk m c 1 t) (iblk m c 2 t) (iblk m c 3 t) t.val (row_lt t)
    (iblk1_apply m c t) (iblk2_apply m c t) (iblk3_apply m c t) y _ ?_
  show win0_5.index t 0 * 80 + 1 * (y 0).val = t.val * 80 + (y 0).val
  rw [e10]; omega

/-- Point `t` writes the sums of rows `80 t …` of the first matrix into the third output column. -/
theorem flushed6_eq (c : Dev nD) (t : Fin cfg0.N) :
    (dats m 0 c).flushed 6 t = ((cfg0.win 6).blk t).view.read (Elt Ideal)
      (rowSumColumn (m ((c : Thread nD τ).loc main_arg0))) := by
  show (cfg0.win 6).cut (grid0.coords t) ((dats m 0 c).after 6 t) = _
  rw [after0_6]
  unfold out0_6
  rw [View.canon_unit_zero hz]
  simp only [View.ld_unit_zero (S := S80x10000) hz]
  obtain ⟨-, -, -, -, -, -, -, -, -, -, -, -, e12, -⟩ := idx_facts t
  funext y
  rw [View.read_apply]
  refine block_rowsum _ (iblk m c 0 t) t.val (row_lt t) (iblk0_apply m c t) y _ ?_
  show win0_6.index t 0 * 80 + 1 * (y 0).val = t.val * 80 + (y 0).val
  rw [e12]; omega

/-! ## The blocks tile the columns -/

/-- The point whose block holds row `i`. -/
def pointOf (i : S10000x1.Idx) : Fin cfg0.N :=
  ⟨(i 0).val / 80, by
    have h : (i 0).val < 10000 := (i 0).isLt
    rw [show cfg0.N = 125 from N_0]; omega⟩

theorem mem_blk4 (t : Fin cfg0.N) (i : S10000x1.Idx) :
    i ∈ ((cfg0.win 4).blk t).view.set ↔ ∀ a : Fin 2, win0_4.index t a * S80x1.size a ≤ (i a).val ∧ (i a).val < win0_4.index t a * S80x1.size a + S80x1.size a := by
  show i ∈ ((View.whole main_v1_0).slice (win0_4.rect t)).set ↔ _
  rw [View.set_slice_whole, Rect.mem_set_unit]
  exact Iff.rfl
theorem mem_blk5 (t : Fin cfg0.N) (i : S10000x1.Idx) :
    i ∈ ((cfg0.win 5).blk t).view.set ↔ ∀ a : Fin 2, win0_5.index t a * S80x1.size a ≤ (i a).val ∧ (i a).val < win0_5.index t a * S80x1.size a + S80x1.size a := by
  show i ∈ ((View.whole main_v1_1).slice (win0_5.rect t)).set ↔ _
  rw [View.set_slice_whole, Rect.mem_set_unit]
  exact Iff.rfl
theorem mem_blk6 (t : Fin cfg0.N) (i : S10000x1.Idx) :
    i ∈ ((cfg0.win 6).blk t).view.set ↔ ∀ a : Fin 2, win0_6.index t a * S80x1.size a ≤ (i a).val ∧ (i a).val < win0_6.index t a * S80x1.size a + S80x1.size a := by
  show i ∈ ((View.whole main_v1_2).slice (win0_6.rect t)).set ↔ _
  rw [View.set_slice_whole, Rect.mem_set_unit]
  exact Iff.rfl

theorem cover4 (i : S10000x1.Idx) : ∃ t : Fin cfg0.N, (cfg0.win 4).flush t = true ∧ i ∈ ((cfg0.win 4).blk t).view.set := by
  have h0 : (i 0).val < 10000 := (i 0).isLt
  have h1 : (i 1).val < 1 := (i 1).isLt
  refine ⟨pointOf i, flush0_4 _, ?_⟩
  rw [mem_blk4]
  obtain ⟨-, -, -, -, -, -, -, -, e0, e1, -⟩ := idx_facts (pointOf i)
  have hp : (pointOf i).val = (i 0).val / 80 := rfl
  intro a
  match a with
  | ⟨0, _⟩ => show win0_4.index (pointOf i) 0 * 80 ≤ (i 0).val ∧ (i 0).val < win0_4.index (pointOf i) 0 * 80 + 80; rw [e0, hp]; omega
  | ⟨1, _⟩ => show win0_4.index (pointOf i) 1 * 1 ≤ (i 1).val ∧ (i 1).val < win0_4.index (pointOf i) 1 * 1 + 1; rw [e1]; omega

theorem cover5 (i : S10000x1.Idx) : ∃ t : Fin cfg0.N, (cfg0.win 5).flush t = true ∧ i ∈ ((cfg0.win 5).blk t).view.set := by
  have h0 : (i 0).val < 10000 := (i 0).isLt
  have h1 : (i 1).val < 1 := (i 1).isLt
  refine ⟨pointOf i, flush0_5 _, ?_⟩
  rw [mem_blk5]
  obtain ⟨-, -, -, -, -, -, -, -, -, -, e0, e1, -⟩ := idx_facts (pointOf i)
  have hp : (pointOf i).val = (i 0).val / 80 := rfl
  intro a
  match a with
  | ⟨0, _⟩ => show win0_5.index (pointOf i) 0 * 80 ≤ (i 0).val ∧ (i 0).val < win0_5.index (pointOf i) 0 * 80 + 80; rw [e0, hp]; omega
  | ⟨1, _⟩ => show win0_5.index (pointOf i) 1 * 1 ≤ (i 1).val ∧ (i 1).val < win0_5.index (pointOf i) 1 * 1 + 1; rw [e1]; omega

theorem cover6 (i : S10000x1.Idx) : ∃ t : Fin cfg0.N, (cfg0.win 6).flush t = true ∧ i ∈ ((cfg0.win 6).blk t).view.set := by
  have h0 : (i 0).val < 10000 := (i 0).isLt
  have h1 : (i 1).val < 1 := (i 1).isLt
  refine ⟨pointOf i, flush0_6 _, ?_⟩
  rw [mem_blk6]
  obtain ⟨-, -, -, -, -, -, -, -, -, -, -, -, e0, e1⟩ := idx_facts (pointOf i)
  have hp : (pointOf i).val = (i 0).val / 80 := rfl
  intro a
  match a with
  | ⟨0, _⟩ => show win0_6.index (pointOf i) 0 * 80 ≤ (i 0).val ∧ (i 0).val < win0_6.index (pointOf i) 0 * 80 + 80; rw [e0, hp]; omega
  | ⟨1, _⟩ => show win0_6.index (pointOf i) 1 * 1 ≤ (i 1).val ∧ (i 1).val < win0_6.index (pointOf i) 1 * 1 + 1; rw [e1]; omega

/-! ## The columns after the region -/

/-- The first output column ends holding the scores against the first matrix. -/
theorem final4 (c : Dev nD) : (dats m 0 c).arrAt 4 cfg0.N
    = scoreColumn (m ((c : Thread nD τ).loc main_arg0)) (m ((c : Thread nD τ).loc main_arg2)) :=
  (dats m 0 c).arrAt_eq_of_cover 4 _ (fun t _ => flushed4_eq m c t) cover4

/-- The second output column ends holding the scores against the second matrix. -/
theorem final5 (c : Dev nD) : (dats m 0 c).arrAt 5 cfg0.N
    = scoreColumn (m ((c : Thread nD τ).loc main_arg1)) (m ((c : Thread nD τ).loc main_arg2)) :=
  (dats m 0 c).arrAt_eq_of_cover 5 _ (fun t _ => flushed5_eq m c t) cover5

/-- The third output column ends holding the first matrix's row sums. -/
theorem final6 (c : Dev nD) : (dats m 0 c).arrAt 6 cfg0.N
    = rowSumColumn (m ((c : Thread nD τ).loc main_arg0)) :=
  (dats m 0 c).arrAt_eq_of_cover 6 _ (fun t _ => flushed6_eq m c t) cover6

end Cert.KernelIdeal.Arrays

end
-- ==== Proof.KTail.lean ====
/-
  The four results of the kernel's program, each as a term of the argument matrices.

  After the region the program holds three columns: the node scores against each matrix and the first matrix's row
  sums. The lines after the region recast the two score columns as vectors, add up the row sums, and compute from
  these, the assignment matrix and the number `4` the four results (the shared functions of `Cert.Loss`). The
  region's columns are the whole-column functions of the argument matrices; so is every result.
-/
import proofs.«121201_j4621384810785_2_alg».proof.Proof.Gen.KernelIdeal.Frame
import proofs.«121201_j4621384810785_2_alg».proof.Proof.Blocks
import proofs.«121201_j4621384810785_2_alg».proof.Proof.Loss
import Idealize.ShloMosaic.Lib.StableHlo.Run

noncomputable section

namespace Cert.KernelIdeal.Results

open Cert.KernelIdeal Cert.KernelIdeal.Gen Idealize.ShloMosaic Idealize.ShloMosaic.TcCoe Idealize.SL.Sem
open Idealize.ShloMosaic.ValueIdx Idealize.ShloMosaic.StableHlo Cert.Loss Cert.KernelIdeal.Arrays
open Idealize.ShloMosaic.Pipeline (Dat)

variable (m : (ℓ : Loc nD τ sig) → Buf (Elt Ideal) ℓ) (ρ : Dev nD → PrngReg)

/-! ## The lines after the region, from any contents of the three columns and the assignment matrix -/

section Tail

variable (W : Valuation τ sig (Elt Ideal)) (S A R : SN1.Idx → EReal) (O : SNK.Idx → EReal)
  (h4 : (W (Proc.devRef .tc main_v1_0) : SN1.Idx → EReal) = S)
  (h5 : (W (Proc.devRef .tc main_v1_1) : SN1.Idx → EReal) = A)
  (h6 : (W (Proc.devRef .tc main_v1_2) : SN1.Idx → EReal) = R)
  (h2 : (W (Proc.devRef .tc main_arg2) : SNK.Idx → EReal) = O)

include h4 h5 h6 h2

theorem tail18 :
    StableHlo.after (List.flatten [(hostOps1 : List (HloOp τ sig (Elt Ideal))), hostOps1_1, hostOps1_2]) W (Proc.devRef .tc main_v18)
      = clusterLoss (shapeCast SN S castN1) (shapeCast SN A castN1) (columnTotal R) O (constant (F := Ideal) S0 .f32 0x40800000#32) := by
  subst h4 h5 h6 h2
  simp only [hostOps1, hostOps1_1, hostOps1_2, List.flatten_cons, List.flatten_nil, List.append_nil, List.cons_append, List.nil_append]
  after_results_simp
  rfl

theorem tail19 :
    StableHlo.after (List.flatten [(hostOps1 : List (HloOp τ sig (Elt Ideal))), hostOps1_1, hostOps1_2]) W (Proc.devRef .tc main_v19)
      = negShare (shapeCast SN S castN1) (columnTotal R) := by
  subst h4 h5 h6 h2
  simp only [hostOps1, hostOps1_1, hostOps1_2, List.flatten_cons, List.flatten_nil, List.append_nil, List.cons_append, List.nil_append]
  after_results_simp
  rfl

theorem tail20 :
    StableHlo.after (List.flatten [(hostOps1 : List (HloOp τ sig (Elt Ideal))), hostOps1_1, hostOps1_2]) W (Proc.devRef .tc main_v20)
      = negShare (shapeCast SN A castN1) (columnTotal R) := by
  subst h4 h5 h6 h2
  simp only [hostOps1, hostOps1_1, hostOps1_2, List.flatten_cons, List.flatten_nil, List.append_nil, List.cons_append, List.nil_append]
  after_results_simp
  rfl

theorem tail22 :
    StableHlo.after (List.flatten [(hostOps1 : List (HloOp τ sig (Elt Ideal))), hostOps1_1, hostOps1_2]) W (Proc.devRef .tc main_v22)
      = negBoth (shapeCast SN S castN1) (shapeCast SN A castN1) (columnTotal R) := by
  subst h4 h5 h6 h2
  simp only [hostOps1, hostOps1_1, hostOps1_2, List.flatten_cons, List.flatten_nil, List.append_nil, List.cons_append, List.nil_append]
  after_results_simp
  rfl

end Tail

/-! ## The contents the lines after the region start from -/

/-- What the region leaves: its arrays at the proof data's, the rest as the region found it. -/
abbrev left (c : Dev nD) : Valuation τ sig (Elt Ideal) :=
  Pipeline.withArrays (cfgs 0).spec c (V0 m c) fun w => (dats m 0 c).arrAt w (cfgs 0).N

theorem left4 (c : Dev nD) : (left m c (Proc.devRef .tc main_v1_0) : SN1.Idx → EReal)
    = scoreColumn (m ((c : Thread nD τ).loc main_arg0)) (m ((c : Thread nD τ).loc main_arg2)) :=
  (Pipeline.withArrays_arr spec0 launch0.win.arr_inj c _ _ 4).trans (final4 m c)
theorem left5 (c : Dev nD) : (left m c (Proc.devRef .tc main_v1_1) : SN1.Idx → EReal)
    = scoreColumn (m ((c : Thread nD τ).loc main_arg1)) (m ((c : Thread nD τ).loc main_arg2)) :=
  (Pipeline.withArrays_arr spec0 launch0.win.arr_inj c _ _ 5).trans (final5 m c)
theorem left6 (c : Dev nD) : (left m c (Proc.devRef .tc main_v1_2) : SN1.Idx → EReal)
    = rowSumColumn (m ((c : Thread nD τ).loc main_arg0)) :=
  (Pipeline.withArrays_arr spec0 launch0.win.arr_inj c _ _ 6).trans (final6 m c)
theorem left2 (c : Dev nD) : (left m c (Proc.devRef .tc main_arg2) : SNK.Idx → EReal)
    = m ((c : Thread nD τ).loc main_arg2) :=
  (Pipeline.withArrays_arr spec0 launch0.win.arr_inj c _ _ 2).trans
    (((dats m 0 c).arrAt_in 2 rfl _).trans ((A_eq m c 2).trans (V_main_arg2 m c)))

/-! ## The results -/

/-- A result buffer is none of the region's arrays. -/
theorem rest18 : main_v18 ∈ Pipeline.restRefs sig (cfgs 0).spec :=
  Pipeline.mem_restRefs_of main_v18 rfl (fun w => by fin_cases w <;> decide)
theorem rest19 : main_v19 ∈ Pipeline.restRefs sig (cfgs 0).spec :=
  Pipeline.mem_restRefs_of main_v19 rfl (fun w => by fin_cases w <;> decide)
theorem rest20 : main_v20 ∈ Pipeline.restRefs sig (cfgs 0).spec :=
  Pipeline.mem_restRefs_of main_v20 rfl (fun w => by fin_cases w <;> decide)
theorem rest22 : main_v22 ∈ Pipeline.restRefs sig (cfgs 0).spec :=
  Pipeline.mem_restRefs_of main_v22 rfl (fun w => by fin_cases w <;> decide)

/-- The program's run, read: every weakly fair execution terminates with the four results at the shared functions
    of the scores, the total by rows, the assignment matrix and the number `4`; the arguments unchanged. -/
theorem run : θ_run defs (onTc (τ := τ) (main (F := Ideal))) ⟨m, fun _ => 0, ρ⟩ fun r => ∀ c : Dev nD,
      r.2.mem ((c.tc : Thread nD τ).loc main_v18)
        = clusterLoss (scoreVec (m ((c : Thread nD τ).loc main_arg0)) (m ((c : Thread nD τ).loc main_arg2)))
            (scoreVec (m ((c : Thread nD τ).loc main_arg1)) (m ((c : Thread nD τ).loc main_arg2)))
            (columnTotal (rowSumColumn (m ((c : Thread nD τ).loc main_arg0)))) (m ((c : Thread nD τ).loc main_arg2))
            (constant (F := Ideal) S0 .f32 0x40800000#32)
      ∧ r.2.mem ((c.tc : Thread nD τ).loc main_v19)
        = negShare (scoreVec (m ((c : Thread nD τ).loc main_arg0)) (m ((c : Thread nD τ).loc main_arg2)))
            (columnTotal (rowSumColumn (m ((c : Thread nD τ).loc main_arg0))))
      ∧ r.2.mem ((c.tc : Thread nD τ).loc main_v20)
        = negShare (scoreVec (m ((c : Thread nD τ).loc main_arg1)) (m ((c : Thread nD τ).loc main_arg2)))
            (columnTotal (rowSumColumn (m ((c : Thread nD τ).loc main_arg0))))
      ∧ r.2.mem ((c.tc : Thread nD τ).loc main_v22)
        = negBoth (scoreVec (m ((c : Thread nD τ).loc main_arg0)) (m ((c : Thread nD τ).loc main_arg2)))
            (scoreVec (m ((c : Thread nD τ).loc main_arg1)) (m ((c : Thread nD τ).loc main_arg2)))
            (columnTotal (rowSumColumn (m ((c : Thread nD τ).loc main_arg0))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v18 rest18).trans (tail18 (left m c) _ _ _ _ (left4 m c) (left5 m c) (left6 m c) (left2 m c)),
     ((h c).2 main_v19 rest19).trans (tail19 (left m c) _ _ _ _ (left4 m c) (left5 m c) (left6 m c) (left2 m c)),
     ((h c).2 main_v20 rest20).trans (tail20 (left m c) _ _ _ _ (left4 m c) (left5 m c) (left6 m c) (left2 m c)),
     ((h c).2 main_v22 rest22).trans (tail22 (left m c) _ _ _ _ (left4 m c) (left5 m c) (left6 m c) (left2 m c)),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c)))⟩)
    (run_main m ρ)

end Cert.KernelIdeal.Results

end
-- ==== Proof.RefSide.lean ====
/-
  The reference's four results as the shared functions of the node scores and the total.

  The reference multiplies each whole matrix with the assignment matrix, multiplies entry by entry with the assignment
  matrix and sums each row: entry `r` is `0 + ∑ k, O (r, k) · ∑ j, A (r, j) · O (j, k)`, node `r`'s score. It divides
  by the sum of ALL entries of the first matrix, which is the sum of that matrix's row sums. Its factor is the square
  root of `16`, which is `4`.
-/
import proofs.«121201_j4621384810785_2_alg».proof.Proof.Gen.ReferenceIdeal.Read
import proofs.«121201_j4621384810785_2_alg».proof.Proof.Loss
import proofs.«121201_j4621384810785_2_alg».proof.Proof.LibTileRead

noncomputable section

namespace Cert.ReferenceIdeal.Shared

open Cert.ReferenceIdeal Cert.ReferenceIdeal.Gen Cert.ReferenceIdeal.Read Idealize.ShloMosaic Idealize.ShloMosaic.ValueIdx
open Cert.Loss

/-- The reference's row sums of `O ⊙ (A O)` are the node scores against `A`. -/
theorem scores_eq (A : SNN.Idx → EReal) (O : SNK.Idx → EReal) : scoreVec A O = val_main_v3 (F := Ideal) A O := by
  funext i
  refine ((congrArg (scoreVec A O) (eq_ix1 i)).trans
    (Cert.Lib.TileRead.shapeCast_uncolumn_apply (scoreColumn A O) castN1 (i 0))).trans ?_
  rw [val_main_v3_apply]
  show score A O _ = Ideal.ofBits .f32 0x00000000#32 + _
  rw [Ideal.ofBits_zero_f32, zero_add]
  unfold score
  refine Finset.sum_congr rfl fun k _ => ?_
  rw [val_main_v2_apply, val_main_v1_apply]
  refine congrArg₂ (· * ·) (congrArg O ?_) (Finset.sum_congr rfl fun j _ => congrArg₂ (· * ·) (congrArg A ?_) (congrArg O ?_))
  all_goals
    funext a
    apply Fin.ext
    match a with
    | ⟨0, _⟩ => rfl
    | ⟨1, _⟩ => rfl

/-- The same against the second matrix. -/
theorem scores_eq' (A : SNN.Idx → EReal) (O : SNK.Idx → EReal) : scoreVec A O = val_main_v8 (F := Ideal) A O := by
  funext i
  refine ((congrArg (scoreVec A O) (eq_ix1 i)).trans
    (Cert.Lib.TileRead.shapeCast_uncolumn_apply (scoreColumn A O) castN1 (i 0))).trans ?_
  rw [val_main_v8_apply]
  show score A O _ = Ideal.ofBits .f32 0x00000000#32 + _
  rw [Ideal.ofBits_zero_f32, zero_add]
  unfold score
  refine Finset.sum_congr rfl fun k _ => ?_
  rw [val_main_v7_apply, val_main_v6_apply]
  refine congrArg₂ (· * ·) (congrArg O ?_) (Finset.sum_congr rfl fun j _ => congrArg₂ (· * ·) (congrArg A ?_) (congrArg O ?_))
  all_goals
    funext a
    apply Fin.ext
    match a with
    | ⟨0, _⟩ => rfl
    | ⟨1, _⟩ => rfl

/-- The sum of the row sums, taken from zero, is the reference's sum of all entries taken from zero. -/
theorem total_eq (A : SNN.Idx → EReal) : columnTotal (rowSumColumn A) = val_main_v0 (F := Ideal) A := by
  funext i
  rw [val_main_v0_apply]
  show Ideal.hostReduceAdd redN1 (rowSumColumn A) (Ideal.ofBits .f32 0x00000000#32) i = Ideal.ofBits .f32 0x00000000#32 + _
  rw [Ideal.hostReduceAdd_total redN1 (fun b => b.elim0) _ _ i, total_by_rows]

/-! ## The four results -/

theorem result21 (x0 x1 : SNN.Idx → EReal) (x2 : SNK.Idx → EReal) :
    val_main_v21 (F := Ideal) x0 x1 x2
      = clusterLoss (scoreVec x0 x2) (scoreVec x1 x2) (columnTotal (rowSumColumn x0)) x2 (constant (F := Ideal) S0 .f32 0x40800000#32) := by
  rw [scores_eq x0 x2, scores_eq' x1 x2, total_eq x0, four_eq_sqrt_sixteen]
  rfl

theorem result22 (x0 : SNN.Idx → EReal) (x2 : SNK.Idx → EReal) :
    val_main_v22 (F := Ideal) x0 x2 = negShare (scoreVec x0 x2) (columnTotal (rowSumColumn x0)) := by
  rw [scores_eq x0 x2, total_eq x0]
  rfl

theorem result23 (x0 x1 : SNN.Idx → EReal) (x2 : SNK.Idx → EReal) :
    val_main_v23 (F := Ideal) x0 x1 x2 = negShare (scoreVec x1 x2) (columnTotal (rowSumColumn x0)) := by
  rw [scores_eq' x1 x2, total_eq x0]
  rfl

theorem result25 (x0 x1 : SNN.Idx → EReal) (x2 : SNK.Idx → EReal) :
    val_main_v25 (F := Ideal) x0 x1 x2 = negBoth (scoreVec x0 x2) (scoreVec x1 x2) (columnTotal (rowSumColumn x0)) := by
  rw [scores_eq x0 x2, scores_eq' x1 x2, total_eq x0]
  rfl

end Cert.ReferenceIdeal.Shared

end
-- ==== Proof.lean ====
/-
  The kernel's program and its reference compute the same sub-clustering loss over the extended reals.

  For an adjacency matrix `A`, an attribute matrix `B` (both 10000 × 10000) and a soft assignment `O` of the 10000
  nodes to 16 clusters, both programs return, with `s r = ∑ k, O (r, k) · ∑ j, A (r, j) · O (j, k)` the score of node
  `r` against `A`, `a r` the same against `B`, and `T` the sum of all entries of `A`:
  the vectors `-(s / T)`, `-(a / T)`, `-(s / T + a / T)` and the scalar
  `-(∑ s / T + ∑ a / T - (‖∑ᵢ O (i, ·)‖ / 10000 · c - 1))`.

  The kernel's program cuts the rows into 125 blocks of 80, computes in each block the scores of its rows (a matrix
  product into a zero accumulator, an entrywise product and a row sum, the operands rounded to a shorter float format
  on the way in, which is the identity here) and the row sums of `A`; afterwards it adds the row sums up to `T`. The
  reference computes the scores by whole-matrix products and `T` as one sum over all of `A`. The two agree because
  a block's scores depend on that block's rows only, the blocks tile the rows, and a finite sum in a commutative
  monoid may be taken row by row — no entry needs to be finite, so the precondition is never opened. The factor
  `c` is the number `4` in one program and `√16` in the other, and `√16 = 4`.

  The modules: `Loss` (the scores, the total by rows, the four results as functions of these, `√16 = 4`), `Payload`
  (what the kernel body stores, entry by entry), `Blocks` (each output column of the region as one function of the
  arguments), `KTail` (the kernel program's four results), `RefSide` (the reference's four results as the same
  functions). The kernel does no rewriting on the way to its idealized form, so that claim is trivial.
-/
import proofs.«121201_j4621384810785_2_alg».proof.Defs
import proofs.«121201_j4621384810785_2_alg».proof.Proof.Gen.Kernel
import proofs.«121201_j4621384810785_2_alg».proof.Proof.Gen.Kernel.Skeleton
import proofs.«121201_j4621384810785_2_alg».proof.Proof.Gen.Kernel.Launch
import proofs.«121201_j4621384810785_2_alg».proof.Proof.Gen.Kernel.Points
import proofs.«121201_j4621384810785_2_alg».proof.Proof.Gen.Kernel.Frame
import proofs.«121201_j4621384810785_2_alg».proof.Proof.Gen.KernelIdeal
import proofs.«121201_j4621384810785_2_alg».proof.Proof.Gen.KernelIdeal.Skeleton
import proofs.«121201_j4621384810785_2_alg».proof.Proof.Gen.KernelIdeal.Launch
import proofs.«121201_j4621384810785_2_alg».proof.Proof.Gen.KernelIdeal.Points
import proofs.«121201_j4621384810785_2_alg».proof.Proof.Gen.KernelIdeal.Frame
import proofs.«121201_j4621384810785_2_alg».proof.Proof.Gen.ReferenceIdeal
import proofs.«121201_j4621384810785_2_alg».proof.Proof.Gen.ReferenceIdeal.Run
import proofs.«121201_j4621384810785_2_alg».proof.Proof.Gen.ReferenceIdeal.Read
import proofs.«121201_j4621384810785_2_alg».proof.Proof.Gen.Pre_finite_inputs
import proofs.«121201_j4621384810785_2_alg».proof.Proof.KTail
import proofs.«121201_j4621384810785_2_alg».proof.Proof.RefSide
import Idealize.ShloMosaic.Adequacy
import Idealize.ShloMosaic.Init

noncomputable section

namespace Cert.Proof

open Idealize.ShloMosaic Idealize.SL.Sem

/-- The word-level program runs and leaves its arguments as they were. -/
theorem frame_kernel : Cert.frame_Kernel := fun m ρ _ => Cert.Kernel.Gen.frame m ρ

/-- So does its idealized form. -/
theorem frame_kernelIdeal : Cert.frame_KernelIdeal := fun m ρ _ => Cert.KernelIdeal.Gen.frame m ρ

/-- The reference runs and leaves its arguments as they were: its run with the results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- From arguments that agree, both programs end with the four results at the shared functions of the node scores,
    the total of the first matrix taken by rows, the assignment matrix and the number `4`. -/
theorem algebraic : Cert.algebraic_KernelIdeal_ReferenceIdeal := by
  intro m ρ m' ρ' _ hagree
  refine ⟨_, _, _, _, Cert.KernelIdeal.Results.run m ρ, ?_⟩
  refine (θ_run Cert.ReferenceIdeal.defs _ _).mono (fun _ h c => ?_) (Cert.ReferenceIdeal.Value.run (F := Ideal) m' ρ')
  obtain ⟨h21, h22, h23, h25, hrest⟩ := h c
  obtain ⟨e0, e1, e2⟩ := hagree c
  refine ⟨h21.trans ?_, h22.trans ?_, h23.trans ?_, h25.trans ?_, hrest⟩
  · rw [e0, e1, e2, Cert.ReferenceIdeal.Read.val_main_v21_eq]
    exact Cert.ReferenceIdeal.Shared.result21 _ _ _
  · rw [e0, e2, Cert.ReferenceIdeal.Read.val_main_v22_eq]
    exact Cert.ReferenceIdeal.Shared.result22 _ _
  · rw [e0, e1, e2, Cert.ReferenceIdeal.Read.val_main_v23_eq]
    exact Cert.ReferenceIdeal.Shared.result23 _ _ _
  · rw [e0, e1, e2, Cert.ReferenceIdeal.Read.val_main_v25_eq]
    exact Cert.ReferenceIdeal.Shared.result25 _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
